-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S128 .f32) (main_arg6 : FVec F S128x47 .f32) (main_arg7 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg6
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg7
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x47 .f32) (main_arg7 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S1x128 : Shape := ⟨2, ![1, 128]⟩
abbrev S1x47 : Shape := ⟨2, ![1, 47]⟩
abbrev S10000x128 : Shape := ⟨2, ![10000, 128]⟩
abbrev S10000x1 : Shape := ⟨2, ![10000, 1]⟩
abbrev S1600000x128 : Shape := ⟨2, ![1600000, 128]⟩
abbrev S10000x2 : Shape := ⟨2, ![10000, 2]⟩
abbrev S100000x47 : Shape := ⟨2, ![100000, 47]⟩
abbrev S10000x47 : Shape := ⟨2, ![10000, 47]⟩

abbrev nBuf : Space → Nat
  | .hbm => 69
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x1, .f32⟩
  | .hbm, ⟨36, _⟩ => ⟨S100000x2, .f32⟩
  | .hbm, ⟨37, _⟩ => ⟨S1x128, .f32⟩
  | .hbm, ⟨38, _⟩ => ⟨S1x128, .f32⟩
  | .hbm, ⟨39, _⟩ => ⟨S1x47, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x47, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x2, .f32⟩
  | .local _ .vmem, ⟨10, _⟩ => ⟨S10000x2, .f32⟩
  | .local _ .vmem, ⟨11, _⟩ => ⟨S1x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S1x128, .f32⟩
  | .local _ .vmem, ⟨20, _⟩ => ⟨S128x47, .f32⟩
  | .local _ .vmem, ⟨21, _⟩ => ⟨S1x47, .f32⟩
  | .local _ .vmem, ⟨22, _⟩ => ⟨S10000x47, .f32⟩
  | .local _ .vmem, ⟨23, _⟩ => ⟨S10000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S100000x1_S100000x1_S100000x2_d1 : Shape.Concatenates [S100000x1, S100000x1] S100000x2 1
  shapeCasts_S128_S1x128 : S128.ShapeCasts S1x128
  shapeCasts_S47_S1x47 : S47.ShapeCasts S1x47
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  inb_S10000x47_S10000x47_0_0 : ∀ a, (![0, 0] : Fin 2 → Nat) a + S10000x47.size a ≤ S10000x47.size a
  h_S10000x47 : 0 < S10000x47.numel
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x47_S10000x47_1_0_0_1_n_n_wf : DotDims.WF S10000x128 S128x47 S10000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x2.size a ≤ S100000x2.size a
  hwx1_1 : ∀ i : grid1.Coords, EltTy.bits .f32 = 32 ∨ (Rect.block (s := S100000x2) S10000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x47.size a ≤ S100000x47.size a
  hwx2_5 : ∀ i : grid2.Coords, EltTy.bits .f32 = 32 ∨ (Rect.block (s := S100000x47) S10000x47.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x47_S10000x47_1_0_0_1_n_n : DotDims S10000x128 S128x47 S10000x47 where
  lhsContracting := [1]
  rhsContracting := [0]
  lhsNonContracting := [0]
  rhsNonContracting := [1]
  lhsBatch := []
  rhsBatch := []
  wf := dot_S10000x128_S128x47_S10000x47_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S10000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x47 : Shape := ⟨2, ![100000, 47]⟩
abbrev S1x47 : Shape := ⟨2, ![1, 47]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x47, .f32⟩
  | .hbm, ⟨87, _⟩ => ⟨S1x47, .f32⟩
  | .hbm, ⟨88, _⟩ => ⟨S100000x47, .f32⟩
  | .hbm, ⟨89, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The idealized kernel's run with its result named.

  The program is three kernel regions among stretches of host operations. Its run passes through seven boundaries;
  at the last one every unscoped buffer of the TensorCore holds a known array (the fold of the host stretches and
  of what the regions write back). Reading the final state against that last boundary gives the result buffer's
  contents by name, beside the argument buffers, which end as launched.
-/
import proofs.«153384_j22385369547105_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument buffers as launched. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.ResultRun

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Layers.lean ====
/-
  The three dense stages of a two-layer graph convolution with a linear classifier, entry by entry, over the
  extended reals.

  The network takes node features x : [100000, 128], two degree columns cs, cd : [100000] (one weight per node,
  for its outgoing and its incoming edges), weights W0, W1 : [128, 128], Wc : [128, 47] and biases b0, b1 : [128],
  bc : [47]. Between the dense stages a neighbourhood sum A (a function from [100000, 128] arrays to
  [100000, 128] arrays: rows gathered along the edges' sources and added up at their targets) is applied; the
  dense stages never look inside it. With relu(v) = max(v, 0):

    first   (p, q) = sum_k (x(p, k) * cs(p)) * W0(k, q)
    hidden  (p, q) = sum_k (relu(h(p, k) * cd(p) + b0(k)) * cs(p)) * W1(k, q)
    readout (p, q) = (sum_k relu(h(p, k) * cd(p) + b1(k)) * Wc(k, q)) + bc(q)

  and the whole network is  readout (A (hidden (A (first x)))).  Every stage is one row of its input at a time:
  entry (p, q) reads row p only, so a stage computed on a block of rows is that block of the stage.
-/
import Idealize.ShloMosaic.PureOps.Ideal
import Idealize.ShloMosaic.Lib.ValueIdx

noncomputable section

open scoped BigOperators

namespace Cert.Layers

open Idealize.ShloMosaic Idealize.ShloMosaic.ValueIdx

/-- One value per node. -/
abbrev Nodes : Shape := ⟨1, ![100000]⟩
/-- A 128-wide row per node. -/
abbrev Feat : Shape := ⟨2, ![100000, 128]⟩
/-- A 47-wide row per node. -/
abbrev Scores : Shape := ⟨2, ![100000, 47]⟩

/-- Column `j` of a matrix with one row per node, as a vector over the nodes. -/
def column {n : Nat} (M : (⟨2, ![100000, n]⟩ : Shape).Idx → EReal) (j : Fin n) : Nodes.Idx → EReal :=
  fun i => M (ix2 (i 0) j)

/-- The one row of a [1, n] matrix, as a vector. -/
def rowOf {n : Nat} (M : (⟨2, ![1, n]⟩ : Shape).Idx → EReal) : (⟨1, ![n]⟩ : Shape).Idx → EReal :=
  fun i => M (ix2 (0 : Fin 1) (i 0))

/-- The f32 zero word as an extended real: the floor of the rectifier. -/
def floor0 : EReal := Ideal.ofBits .f32 0x00000000#32

/-- The rectified, shifted and scaled entry the two later stages start from: max(h * d + b, 0). -/
def act (h d b : EReal) : EReal := max (h * d + b) floor0

/-- First stage at (p, q): the row of x scaled by the node's outgoing weight, times W0's column q. -/
def first (x : Feat.Idx → EReal) (cs : Nodes.Idx → EReal) (w : (⟨2, ![128, 128]⟩ : Shape).Idx → EReal)
    (p : Fin 100000) (q : Fin 128) : EReal :=
  ∑ k : Fin 128, (x (ix2 p k) * cs (ix1 p)) * w (ix2 k q)

/-- Second stage at (p, q): the aggregated row, scaled by the incoming weight, shifted, rectified, scaled by the
    outgoing weight, times W1's column q. -/
def hidden (h : Feat.Idx → EReal) (cd cs : Nodes.Idx → EReal) (b : (⟨1, ![128]⟩ : Shape).Idx → EReal)
    (w : (⟨2, ![128, 128]⟩ : Shape).Idx → EReal) (p : Fin 100000) (q : Fin 128) : EReal :=
  ∑ k : Fin 128, (act (h (ix2 p k)) (cd (ix1 p)) (b (ix1 k)) * cs (ix1 p)) * w (ix2 k q)

/-- Last stage at (p, q): the aggregated row, scaled, shifted, rectified, times Wc's column q, plus the class bias. -/
def readout (h : Feat.Idx → EReal) (cd : Nodes.Idx → EReal) (b : (⟨1, ![128]⟩ : Shape).Idx → EReal)
    (w : (⟨2, ![128, 47]⟩ : Shape).Idx → EReal) (bc : (⟨1, ![47]⟩ : Shape).Idx → EReal) (p : Fin 100000) (q : Fin 47) : EReal :=
  (∑ k : Fin 128, act (h (ix2 p k)) (cd (ix1 p)) (b (ix1 k)) * w (ix2 k q)) + bc (ix1 q)

/-- The stages as whole arrays. -/
def firstA (x : Feat.Idx → EReal) (cs : Nodes.Idx → EReal) (w : (⟨2, ![128, 128]⟩ : Shape).Idx → EReal) : Feat.Idx → EReal :=
  fun i => first x cs w (i 0) (i 1)
def hiddenA (h : Feat.Idx → EReal) (cd cs : Nodes.Idx → EReal) (b : (⟨1, ![128]⟩ : Shape).Idx → EReal)
    (w : (⟨2, ![128, 128]⟩ : Shape).Idx → EReal) : Feat.Idx → EReal :=
  fun i => hidden h cd cs b w (i 0) (i 1)
def readoutA (h : Feat.Idx → EReal) (cd : Nodes.Idx → EReal) (b : (⟨1, ![128]⟩ : Shape).Idx → EReal)
    (w : (⟨2, ![128, 47]⟩ : Shape).Idx → EReal) (bc : (⟨1, ![47]⟩ : Shape).Idx → EReal) : Scores.Idx → EReal :=
  fun i => readout h cd b w bc (i 0) (i 1)

/-- The network: the three stages with the neighbourhood sum `A` between them. -/
def network (A : (Feat.Idx → EReal) → (Feat.Idx → EReal)) (cs cd : Nodes.Idx → EReal)
    (x : Feat.Idx → EReal) (w0 : (⟨2, ![128, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (wc : (⟨2, ![128, 47]⟩ : Shape).Idx → EReal) (bc : (⟨1, ![47]⟩ : Shape).Idx → EReal) : Scores.Idx → EReal :=
  readoutA (A (hiddenA (A (firstA x cs w0)) cd cs b0 w1)) cd b1 wc bc

end Cert.Layers

end
-- ==== Proof.Bodies.lean ====
/-
  What each of the three kernel bodies stores, read at an entry, over the extended reals.

  Each body loads a block of 10000 rows, combines it with a per-row weight column and (in the two later bodies) a bias
  row, and multiplies by a weight matrix into a zero accumulator. Over the extended reals a change of float
  format is the identity and the product into zero is the plain sum over the contracted axis, so at (p, q):

    body 1:  sum_k (x(p, k) * c(p, 0)) * W(k, q)
    body 2:  sum_k (max(h(p, k) * coef(p, 0) + b(0, k), 0) * coef(p, 1)) * W(k, q)
    body 3:  (sum_k max(h(p, k) * c(p, 0) + b(0, k), 0) * W(k, q)) + bc(0, q)

  Entry (p, q) depends on row p of the block and of the weight column only.
-/
import proofs.«153384_j22385369547105_1_alg».proof.Proof.Gen.KernelIdeal.Skeleton
import proofs.«153384_j22385369547105_1_alg».proof.Proof.LibColumns
import proofs.«153384_j22385369547105_1_alg».proof.Proof.LibMatmulPlain
import proofs.«153384_j22385369547105_1_alg».proof.Proof.Layers
import Idealize.ShloMosaic.Lib.ValueLayout
import Idealize.ShloMosaic.Lib.Pipeline.Value

noncomputable section

open scoped BigOperators

namespace Cert.KernelIdeal.Bodies

open Cert.KernelIdeal Cert.KernelIdeal.Gen Idealize.ShloMosaic Idealize.ShloMosaic.ValueIdx

/-- A block scaled row by row by a weight column, at (p, k). -/
theorem scaled_apply (x : Vec Ideal S10000x128 .f32) (c : Vec Ideal S10000x1 .f32)
    (hb : S10000x1.Broadcasts S10000x128) (p : Fin 10000) (k : Fin 128) :
    mulf (F := Ideal) (φ := .f32) x (broadcastTo S10000x128 c hb) (ix2 p k) = x (ix2 p k) * c (ix2 p (0 : Fin 1)) :=
  congrArg (x (ix2 p k) * ·) (Cert.Columns.broadcastTo_a1_ab_apply c hb p k)

/-- A bias row spread over the block's rows, at (p, k). -/
theorem bias_apply (b : Vec Ideal S1x128 .f32) (hb : S1x128.Broadcasts S10000x128) (p : Fin 10000) (k : Fin 128) :
    broadcastTo S10000x128 b hb (ix2 p k) = b (ix2 (0 : Fin 1) k) :=
  broadcastTo_1b_ab_apply b hb p k

/-- Body 1 at (p, q). -/
theorem pay_first (x0 : Vec Ideal S10000x128 .f32) (x1 : Vec Ideal S10000x1 .f32) (x6 : Vec Ideal S128x128 .f32)
    (p : Fin 10000) (q : Fin 128) :
    k0_pay1 (F := Ideal) x0 x1 x6 (ix2 p q) = ∑ k : Fin 128, (x0 (ix2 p k) * x1 (ix2 p (0 : Fin 1))) * x6 (ix2 k q) := by
  unfold k0_pay1
  refine (Cert.LibMatmulPlain.matmul_plain_zero_apply (M := 10000) (K := 128) (N := 128) _ rfl none _ _ p q).trans ?_
  refine Finset.sum_congr rfl fun k _ => ?_
  refine congrArg (· * x6 (ix2 k q)) ?_
  refine (scaled_apply x0 _ _ p k).trans ?_
  exact congrArg (x0 (ix2 p k) * ·) (congrFun (shapeCast_self x1 _) _)

/-- The rectified entry both later bodies form: the block scaled by a weight column, shifted by the bias row, cut at zero. -/
theorem act_apply (h : Vec Ideal S10000x128 .f32) (c : Vec Ideal S10000x1 .f32) (b : Vec Ideal S1x128 .f32)
    (hc : S10000x1.Broadcasts S10000x128) (hb : S1x128.Broadcasts S10000x128) (p : Fin 10000) (k : Fin 128) :
    maximumf (F := Ideal) (φ := .f32) (addf (mulf h (broadcastTo S10000x128 c hc)) (broadcastTo S10000x128 b hb))
        (broadcast S10000x128 (Scalar.ofBits .f32 0x00000000#32)) (ix2 p k)
      = Cert.Layers.act (h (ix2 p k)) (c (ix2 p (0 : Fin 1))) (b (ix2 (0 : Fin 1) k)) := by
  unfold Cert.Layers.act
  refine congrArg₂ max (congrArg₂ (· + ·) ?_ ?_) rfl
  · exact scaled_apply h c hc p k
  · exact bias_apply b hb p k

/-- Body 2 at (p, q): the coefficient block's column 0 scales before the shift, its column 1 after the cut. -/
theorem pay_hidden (v0 : Vec Ideal S10000x2 .f32) (v4 : Vec Ideal S10000x128 .f32) (v8 : Vec Ideal S1x128 .f32)
    (v17 : Vec Ideal S128x128 .f32) (p : Fin 10000) (q : Fin 128) :
    k1_pay1 (F := Ideal) v0 v4 v8 v17 (ix2 p q)
      = ∑ k : Fin 128, (Cert.Layers.act (v4 (ix2 p k)) (v0 (ix2 p (0 : Fin 2))) (v8 (ix2 (0 : Fin 1) k)) * v0 (ix2 p (1 : Fin 2)))
          * v17 (ix2 k q) := by
  unfold k1_pay1
  refine (Cert.LibMatmulPlain.matmul_plain_zero_apply (M := 10000) (K := 128) (N := 128) _ rfl none _ _ p q).trans ?_
  refine Finset.sum_congr rfl fun k _ => ?_
  refine congrArg (· * v17 (ix2 k q)) ?_
  refine (scaled_apply _ _ _ p k).trans ?_
  refine congrArg₂ (· * ·) ?_ ?_
  · rw [shapeCast_self v4, shapeCast_self v8, shapeCast_self v0]
    refine (act_apply v4 _ v8 _ _ p k).trans ?_
    exact congrArg (fun z => Cert.Layers.act (v4 (ix2 p k)) z (v8 (ix2 (0 : Fin 1) k)))
      (slice2_axis1_apply 0 v0 _ p (0 : Fin 1) (0 : Fin 2) rfl)
  · rw [shapeCast_self v0]
    exact slice2_axis1_apply 1 v0 _ p (0 : Fin 1) (1 : Fin 2) rfl

/-- Body 3 at (p, q). -/
theorem pay_readout (v0 : Vec Ideal S10000x128 .f32) (v2 : Vec Ideal S10000x1 .f32) (v6 : Vec Ideal S1x128 .f32)
    (v13 : Vec Ideal S128x47 .f32) (v16 : Vec Ideal S1x47 .f32) (p : Fin 10000) (q : Fin 47) :
    k2_pay1 (F := Ideal) v0 v2 v6 v13 v16 (ix2 p q)
      = (∑ k : Fin 128, Cert.Layers.act (v0 (ix2 p k)) (v2 (ix2 p (0 : Fin 1))) (v6 (ix2 (0 : Fin 1) k)) * v13 (ix2 k q))
          + v16 (ix2 (0 : Fin 1) q) := by
  unfold k2_pay1
  rw [shapeCast_self v0, shapeCast_self v2, shapeCast_self v6, shapeCast_self v16]
  refine congrArg₂ (· + ·) ?_ ?_
  · refine (Cert.LibMatmulPlain.matmul_plain_zero_apply (M := 10000) (K := 128) (N := 47) _ rfl none _ _ p q).trans ?_
    refine Finset.sum_congr rfl fun k _ => ?_
    exact congrArg (· * v13 (ix2 k q)) (act_apply v0 v2 v6 _ _ p k)
  · exact broadcastTo_1b_ab_apply v16 _ p q

end Cert.KernelIdeal.Bodies

end
-- ==== Proof.RegionFirst.lean ====
/-
  The first kernel region, as one function of the arrays it finds.

  The region runs the first body at 10 grid points; point t reads rows 10000 t .. 10000 t + 9999 of the feature
  array and of the weight column, the whole weight matrix, and writes back rows 10000 t .. 10000 t + 9999 of the
  result. Because entry (p, q) of the first stage reads row p only, what point t writes back is rows
  10000 t .. of the first stage of the whole arrays; the ten row ranges cover the result, so the result array ends
  holding the first stage of the arrays the region found.
-/
import proofs.«153384_j22385369547105_1_alg».proof.Proof.Gen.KernelIdeal.Frame
import proofs.«153384_j22385369547105_1_alg».proof.Proof.Bodies
import proofs.«153384_j22385369547105_1_alg».proof.Proof.Layers
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionFirst

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row-blocked windows sit at block t, the weight matrix at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows 10000 t .. of the feature array. -/
theorem feat_block (c : Dev nD) (t : Fin cfg0.N) (y : S10000x128.Idx) (k : S100000x128.Idx)
    (hk0 : (k 0).val = t.val * 10000 + (y 0).val) (hk1 : (k 1).val = (y 1).val) :
    (iblk0 V c 0 t : Vec Ideal S10000x128 .f32) y = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 128 + 1 * (y 1).val = (k 1).val; rw [e1, hk1]; omega

/-- The weight-column block at point t is rows 10000 t .. of the column. -/
theorem col_block (c : Dev nD) (t : Fin cfg0.N) (y : S10000x1.Idx) (k : S100000x1.Idx)
    (hk0 : (k 0).val = t.val * 10000 + (y 0).val) (hk1 : (k 1).val = (y 1).val) :
    (iblk0 V c 1 t : Vec Ideal S10000x1 .f32) y = (V c main_v19 : S100000x1.Idx → EReal) k := by
  obtain ⟨-, -, e0, e1, -⟩ := idx_facts t
  unfold iblk0
  rw [View.read_apply]
  show V c main_v19 _ = V c main_v19 _
  congr 1
  funext a
  apply Fin.ext
  match a with
  | ⟨0, _⟩ => show win0_1.index t (0 : Fin 2) * 10000 + 1 * (y 0).val = (k 0).val; rw [e0, hk0]; omega
  | ⟨1, _⟩ => show win0_1.index t (1 : Fin 2) * 1 + 1 * (y 1).val = (k 1).val; rw [e1, hk1]; omega

/-- The weight-matrix block at every point is the whole matrix. -/
theorem weight_block (c : Dev nD) (t : Fin cfg0.N) (y : S128x128.Idx) :
    (iblk0 V c 2 t : Vec Ideal S128x128 .f32) y = (V c main_arg2 : S128x128.Idx → EReal) y := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first stage of the arrays the region finds. -/
def G (c : Dev nD) : S100000x128.Idx → EReal :=
  Cert.Layers.firstA (V c main_arg0 : S100000x128.Idx → EReal) (Cert.Layers.column (V c main_v19 : S100000x1.Idx → EReal) (0 : Fin 1))
    (V c main_arg2 : S128x128.Idx → EReal)

/-- The body at an entry of its block, when the blocks' rows are rows of the whole arrays: the first stage at the
    corresponding entry of the whole array. -/
theorem body_rows (X : S100000x128.Idx → EReal) (C : S100000x1.Idx → EReal) (W : S128x128.Idx → EReal)
    (x0 : Vec Ideal S10000x128 .f32) (x1 : Vec Ideal S10000x1 .f32) (x2 : Vec Ideal S128x128 .f32)
    (y : S10000x128.Idx) (i : S100000x128.Idx)
    (h0 : ∀ k : Fin 128, x0 (ix2 (y 0) k) = X (ix2 (i 0) k))
    (h1 : x1 (ix2 (y 0) (0 : Fin 1)) = C (ix2 (i 0) (0 : Fin 1)))
    (h2 : ∀ k : Fin 128, x2 (ix2 k (y 1)) = W (ix2 k (i 1))) :
    k0_pay1 (F := Ideal) x0 x1 x2 y = Cert.Layers.firstA X (Cert.Layers.column C (0 : Fin 1)) W i := by
  obtain ⟨p, q, rfl⟩ : ∃ (p : Fin 10000) (q : Fin 128), y = ix2 p q := ⟨y 0, y 1, eq_ix2 y⟩
  rw [Cert.KernelIdeal.Bodies.pay_first]
  unfold Cert.Layers.firstA Cert.Layers.first Cert.Layers.column
  refine Finset.sum_congr rfl fun k _ => ?_
  show (x0 (ix2 p k) * x1 (ix2 p (0 : Fin 1))) * x2 (ix2 k q) = (X (ix2 (i 0) k) * C (ix2 (i 0) (0 : Fin 1))) * W (ix2 k (i 1))
  rw [show x0 (ix2 p k) = X (ix2 (i 0) k) from h0 k, show x1 (ix2 p (0 : Fin 1)) = C (ix2 (i 0) (0 : Fin 1)) from h1,
    show x2 (ix2 k q) = W (ix2 k (i 1)) from h2 k]

/-- What point t writes back is block t of the first stage. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x128) hz]
  obtain ⟨-, -, -, -, -, -, e0, e1⟩ := idx_facts t
  funext j
  show k0_pay1 (F := Ideal) (iblk0 V c 0 t) (iblk0 V c 1 t) (iblk0 V c 2 t) j = G V c (((cfg0.win 3).blk t).view.emb j)
  have hE0 : ((((cfg0.win 3).blk t).view.emb j) 0).val = t.val * 10000 + (j 0).val := by
    show win0_3.index t (0 : Fin 2) * 10000 + 1 * (j 0).val = _; rw [e0]; omega
  have hE1 : ((((cfg0.win 3).blk t).view.emb j) 1).val = (j 1).val := by
    show win0_3.index t (1 : Fin 2) * 128 + 1 * (j 1).val = _; rw [e1]; omega
  unfold G
  refine body_rows _ _ _ _ _ _ j _ (fun k => ?_) ?_ (fun k => ?_)
  · exact feat_block V c t _ _ hE0 rfl
  · exact col_block V c t _ _ hE0 rfl
  · exact (weight_block V c t _).trans (congrArg (V c main_arg2 : S128x128.Idx → EReal) (funext fun a => Fin.ext (by
      match a with
      | ⟨0, _⟩ => rfl
      | ⟨1, _⟩ => exact hE1.symm)))

/-- The ten row ranges cover the result array. -/
theorem cover (i : S100000x128.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 128 := (i 1).isLt
  let t : Fin cfg0.N := ⟨(i 0).val / 10000, by rw [hN]; omega⟩
  obtain ⟨-, -, -, -, -, -, e0, e1⟩ := idx_facts t
  have htv : t.val = (i 0).val / 10000 := rfl
  refine ⟨t, flush0_3 t, ?_⟩
  show i ∈ ((View.whole main_v25).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000; rw [e0, htv]; omega
  | ⟨1, _⟩ => show win0_3.index t (1 : Fin 2) * 128 ≤ (i 1).val ∧ (i 1).val < win0_3.index t (1 : Fin 2) * 128 + 128; rw [e1]; omega

/-- The result array after the region: the first stage of the arrays it found. -/
theorem final (c : Dev nD) : (dat0 V c).arrAt 3 cfg0.N = G V c :=
  (dat0 V c).arrAt_eq_of_cover 3 (G V c) (fun t _ => flushed_eq V c t) cover

end Cert.KernelIdeal.RegionFirst

end
-- ==== Proof.RegionHidden.lean ====
/-
  The second kernel region, as one function of the arrays it finds.

  Point t reads rows 10000 t .. of the aggregated features and of the two-column coefficient array, the whole bias
  row and weight matrix, and writes back rows 10000 t .. of the result. Entry (p, q) of the second stage reads row p
  of the features and of the coefficients only, so what point t writes back is rows 10000 t .. of the second stage
  of the whole arrays, with column 0 of the coefficients as the incoming weights and column 1 as the outgoing ones;
  the ten row ranges cover the result.
-/
import proofs.«153384_j22385369547105_1_alg».proof.Proof.Gen.KernelIdeal.Frame
import proofs.«153384_j22385369547105_1_alg».proof.Proof.Bodies
import proofs.«153384_j22385369547105_1_alg».proof.Proof.Layers
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionHidden

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: a row-blocked window sits at block t, a whole-array window at block 0. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = t.val ∧ win1_4.index t (1 : Fin 2) = 0 :=
  (by decide +kernel : ∀ t : Fin grid1.N, _)

/-- The feature block at point t is rows 10000 t .. of the aggregated features. -/
theorem feat_block (c : Dev nD) (t : Fin cfg1.N) (y : S10000x128.Idx) (k : S100000x128.Idx)
    (hk0 : (k 0).val = t.val * 10000 + (y 0).val) (hk1 : (k 1).val = (y 1).val) :
    (iblk1 V c 0 t : Vec Ideal S10000x128 .f32) y = (V c main_v35 : S100000x128.Idx → EReal) k := by
  obtain ⟨e0, e1⟩ := idx_0 t
  unfold iblk1
  rw [View.read_apply]
  show V c main_v35 _ = V c main_v35 _
  congr 1
  funext a
  apply Fin.ext
  match a with
  | ⟨0, _⟩ => show win1_0.index t (0 : Fin 2) * 10000 + 1 * (y 0).val = (k 0).val; rw [e0, hk0]; omega
  | ⟨1, _⟩ => show win1_0.index t (1 : Fin 2) * 128 + 1 * (y 1).val = (k 1).val; rw [e1, hk1]; omega

/-- The coefficient block at point t is rows 10000 t .. of the coefficient array. -/
theorem coef_block (c : Dev nD) (t : Fin cfg1.N) (y : S10000x2.Idx) (k : S100000x2.Idx)
    (hk0 : (k 0).val = t.val * 10000 + (y 0).val) (hk1 : (k 1).val = (y 1).val) :
    (iblk1 V c 1 t : Vec Ideal S10000x2 .f32) y = (V c main_v21 : S100000x2.Idx → EReal) k := by
  obtain ⟨e0, e1⟩ := idx_1 t
  unfold iblk1
  rw [View.read_apply]
  show V c main_v21 _ = V c main_v21 _
  congr 1
  funext a
  apply Fin.ext
  match a with
  | ⟨0, _⟩ => show win1_1.index t (0 : Fin 2) * 10000 + 1 * (y 0).val = (k 0).val; rw [e0, hk0]; omega
  | ⟨1, _⟩ => show win1_1.index t (1 : Fin 2) * 2 + 1 * (y 1).val = (k 1).val; rw [e1, hk1]; omega

/-- The bias block at every point is the whole bias row. -/
theorem bias_block (c : Dev nD) (t : Fin cfg1.N) (y : S1x128.Idx) :
    (iblk1 V c 2 t : Vec Ideal S1x128 .f32) y = (V c main_v22 : S1x128.Idx → EReal) y := by
  obtain ⟨e0, e1⟩ := idx_2 t
  unfold iblk1
  rw [View.read_apply]
  show V c main_v22 _ = V c main_v22 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The weight block at every point is the whole matrix. -/
theorem weight_block (c : Dev nD) (t : Fin cfg1.N) (y : S128x128.Idx) :
    (iblk1 V c 3 t : Vec Ideal S128x128 .f32) y = (V c main_arg4 : S128x128.Idx → EReal) y := by
  obtain ⟨e0, e1⟩ := idx_3 t
  unfold iblk1
  rw [View.read_apply]
  show V c main_arg4 _ = V c main_arg4 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second stage of the arrays the region finds. -/
def G (c : Dev nD) : S100000x128.Idx → EReal :=
  Cert.Layers.hiddenA (V c main_v35 : S100000x128.Idx → EReal) (Cert.Layers.column (V c main_v21 : S100000x2.Idx → EReal) (0 : Fin 2))
    (Cert.Layers.column (V c main_v21 : S100000x2.Idx → EReal) (1 : Fin 2)) (Cert.Layers.rowOf (V c main_v22 : S1x128.Idx → EReal))
    (V c main_arg4 : S128x128.Idx → EReal)

/-- The body at an entry of its block, when the blocks' rows are rows of the whole arrays: the second stage at the
    corresponding entry of the whole array. -/
theorem body_rows (H : S100000x128.Idx → EReal) (Co : S100000x2.Idx → EReal) (B : S1x128.Idx → EReal) (W : S128x128.Idx → EReal)
    (x0 : Vec Ideal S10000x128 .f32) (x1 : Vec Ideal S10000x2 .f32) (x2 : Vec Ideal S1x128 .f32) (x3 : Vec Ideal S128x128 .f32)
    (y : S10000x128.Idx) (i : S100000x128.Idx)
    (h0 : ∀ k : Fin 128, x0 (ix2 (y 0) k) = H (ix2 (i 0) k))
    (h1a : x1 (ix2 (y 0) (0 : Fin 2)) = Co (ix2 (i 0) (0 : Fin 2)))
    (h1b : x1 (ix2 (y 0) (1 : Fin 2)) = Co (ix2 (i 0) (1 : Fin 2)))
    (h2 : ∀ k : Fin 128, x2 (ix2 (0 : Fin 1) k) = B (ix2 (0 : Fin 1) k))
    (h3 : ∀ k : Fin 128, x3 (ix2 k (y 1)) = W (ix2 k (i 1))) :
    k1_pay1 (F := Ideal) x1 x0 x2 x3 y
      = Cert.Layers.hiddenA H (Cert.Layers.column Co (0 : Fin 2)) (Cert.Layers.column Co (1 : Fin 2)) (Cert.Layers.rowOf B) W i := by
  obtain ⟨p, q, rfl⟩ : ∃ (p : Fin 10000) (q : Fin 128), y = ix2 p q := ⟨y 0, y 1, eq_ix2 y⟩
  rw [Cert.KernelIdeal.Bodies.pay_hidden]
  unfold Cert.Layers.hiddenA Cert.Layers.hidden Cert.Layers.column Cert.Layers.rowOf
  refine Finset.sum_congr rfl fun k _ => ?_
  show (Cert.Layers.act (x0 (ix2 p k)) (x1 (ix2 p (0 : Fin 2))) (x2 (ix2 (0 : Fin 1) k)) * x1 (ix2 p (1 : Fin 2))) * x3 (ix2 k q)
    = (Cert.Layers.act (H (ix2 (i 0) k)) (Co (ix2 (i 0) (0 : Fin 2))) (B (ix2 (0 : Fin 1) k)) * Co (ix2 (i 0) (1 : Fin 2))) * W (ix2 k (i 1))
  rw [show x0 (ix2 p k) = H (ix2 (i 0) k) from h0 k, show x1 (ix2 p (0 : Fin 2)) = Co (ix2 (i 0) (0 : Fin 2)) from h1a,
    show x1 (ix2 p (1 : Fin 2)) = Co (ix2 (i 0) (1 : Fin 2)) from h1b, h2 k, show x3 (ix2 k q) = W (ix2 k (i 1)) from h3 k]

/-- What point t writes back is block t of the second stage. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S10000x128) hz, View.ld_unit_zero (S := S10000x2) hz, View.ld_unit_zero (S := S1x128) hz,
    View.ld_unit_zero (S := S128x128) hz]
  obtain ⟨e0, e1⟩ := idx_4 t
  funext j
  show k1_pay1 (F := Ideal) (iblk1 V c 1 t) (iblk1 V c 0 t) (iblk1 V c 2 t) (iblk1 V c 3 t) j = G V c (((cfg1.win 4).blk t).view.emb j)
  have hE0 : ((((cfg1.win 4).blk t).view.emb j) 0).val = t.val * 10000 + (j 0).val := by
    show win1_4.index t (0 : Fin 2) * 10000 + 1 * (j 0).val = _; rw [e0]; omega
  have hE1 : ((((cfg1.win 4).blk t).view.emb j) 1).val = (j 1).val := by
    show win1_4.index t (1 : Fin 2) * 128 + 1 * (j 1).val = _; rw [e1]; omega
  unfold G
  refine body_rows _ _ _ _ _ _ _ _ j _ (fun k => ?_) ?_ ?_ (fun k => ?_) (fun k => ?_)
  · exact feat_block V c t _ _ hE0 rfl
  · exact coef_block V c t _ _ hE0 rfl
  · exact coef_block V c t _ _ hE0 rfl
  · exact bias_block V c t _
  · exact (weight_block V c t _).trans (congrArg (V c main_arg4 : S128x128.Idx → EReal) (funext fun a => Fin.ext (by
      match a with
      | ⟨0, _⟩ => rfl
      | ⟨1, _⟩ => exact hE1.symm)))

/-- The ten row ranges cover the result array. -/
theorem cover (i : S100000x128.Idx) : ∃ t : Fin cfg1.N, (cfg1.win 4).flush t = true ∧ i ∈ ((cfg1.win 4).blk t).view.set := by
  have hN : cfg1.N = 10 := N_1
  have hi0 : (i 0).val < 100000 := (i 0).isLt
  have hi1 : (i 1).val < 128 := (i 1).isLt
  let t : Fin cfg1.N := ⟨(i 0).val / 10000, by rw [hN]; omega⟩
  obtain ⟨e0, e1⟩ := idx_4 t
  have htv : t.val = (i 0).val / 10000 := rfl
  refine ⟨t, flush1_4 t, ?_⟩
  show i ∈ ((View.whole main_v36).slice (win1_4.rect t)).set
  rw [View.set_slice_whole, Rect.mem_set_unit]
  intro a
  match a with
  | ⟨0, _⟩ => show win1_4.index t (0 : Fin 2) * 10000 ≤ (i 0).val ∧ (i 0).val < win1_4.index t (0 : Fin 2) * 10000 + 10000; rw [e0, htv]; omega
  | ⟨1, _⟩ => show win1_4.index t (1 : Fin 2) * 128 ≤ (i 1).val ∧ (i 1).val < win1_4.index t (1 : Fin 2) * 128 + 128; rw [e1]; omega

/-- The result array after the region: the stage of the arrays it found. -/
theorem final (c : Dev nD) : (dat1 V c).arrAt 4 cfg1.N = G V c :=
  (dat1 V c).arrAt_eq_of_cover 4 (G V c) (fun t _ => flushed_eq V c t) cover

end Cert.KernelIdeal.RegionHidden

end
-- ==== Proof.RegionReadout.lean ====
/-
  The third kernel region, as one function of the arrays it finds.

  Point t reads rows 10000 t .. of the aggregated features and of the incoming-weight column, the whole bias row,
  class weight matrix and class bias row, and writes back rows 10000 t .. of the 47-wide result. Entry (p, q) of the
  last stage reads row p of the features and of the weight column only, so what point t writes back is rows
  10000 t .. of the last stage of the whole arrays; the ten row ranges cover the result.
-/
import proofs.«153384_j22385369547105_1_alg».proof.Proof.Gen.KernelIdeal.Frame
import proofs.«153384_j22385369547105_1_alg».proof.Proof.Bodies
import proofs.«153384_j22385369547105_1_alg».proof.Proof.Layers
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionReadout

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: a row-blocked window sits at block t, a whole-array window at block 0. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = t.val ∧ win2_5.index t (1 : Fin 2) = 0 :=
  (by decide +kernel : ∀ t : Fin grid2.N, _)

/-- The feature block at point t is rows 10000 t .. of the aggregated features. -/
theorem feat_block (c : Dev nD) (t : Fin cfg2.N) (y : S10000x128.Idx) (k : S100000x128.Idx)
    (hk0 : (k 0).val = t.val * 10000 + (y 0).val) (hk1 : (k 1).val = (y 1).val) :
    (iblk2 V c 0 t : Vec Ideal S10000x128 .f32) y = (V c main_v46 : S100000x128.Idx → EReal) k := by
  obtain ⟨e0, e1⟩ := idx_0 t
  unfold iblk2
  rw [View.read_apply]
  show V c main_v46 _ = V c main_v46 _
  congr 1
  funext a
  apply Fin.ext
  match a with
  | ⟨0, _⟩ => show win2_0.index t (0 : Fin 2) * 10000 + 1 * (y 0).val = (k 0).val; rw [e0, hk0]; omega
  | ⟨1, _⟩ => show win2_0.index t (1 : Fin 2) * 128 + 1 * (y 1).val = (k 1).val; rw [e1, hk1]; omega

/-- The weight-column block at point t is rows 10000 t .. of the column. -/
theorem col_block (c : Dev nD) (t : Fin cfg2.N) (y : S10000x1.Idx) (k : S100000x1.Idx)
    (hk0 : (k 0).val = t.val * 10000 + (y 0).val) (hk1 : (k 1).val = (y 1).val) :
    (iblk2 V c 1 t : Vec Ideal S10000x1 .f32) y = (V c main_v20 : S100000x1.Idx → EReal) k := by
  obtain ⟨e0, e1⟩ := idx_1 t
  unfold iblk2
  rw [View.read_apply]
  show V c main_v20 _ = V c main_v20 _
  congr 1
  funext a
  apply Fin.ext
  match a with
  | ⟨0, _⟩ => show win2_1.index t (0 : Fin 2) * 10000 + 1 * (y 0).val = (k 0).val; rw [e0, hk0]; omega
  | ⟨1, _⟩ => show win2_1.index t (1 : Fin 2) * 1 + 1 * (y 1).val = (k 1).val; rw [e1, hk1]; omega

/-- The bias block at every point is the whole bias row. -/
theorem bias_block (c : Dev nD) (t : Fin cfg2.N) (y : S1x128.Idx) :
    (iblk2 V c 2 t : Vec Ideal S1x128 .f32) y = (V c main_v23 : S1x128.Idx → EReal) y := by
  obtain ⟨e0, e1⟩ := idx_2 t
  unfold iblk2
  rw [View.read_apply]
  show V c main_v23 _ = V c main_v23 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The class-weight block at every point is the whole matrix. -/
theorem weight_block (c : Dev nD) (t : Fin cfg2.N) (y : S128x47.Idx) :
    (iblk2 V c 3 t : Vec Ideal S128x47 .f32) y = (V c main_arg6 : S128x47.Idx → EReal) y := by
  obtain ⟨e0, e1⟩ := idx_3 t
  unfold iblk2
  rw [View.read_apply]
  show V c main_arg6 _ = V c main_arg6 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 47 + 1 * (y 1).val = (y 1).val; rw [e1]; omega

/-- The class-bias block at every point is the whole row. -/
theorem cbias_block (c : Dev nD) (t : Fin cfg2.N) (y : S1x47.Idx) :
    (iblk2 V c 4 t : Vec Ideal S1x47 .f32) y = (V c main_v24 : S1x47.Idx → EReal) y := by
  obtain ⟨e0, e1⟩ := idx_4 t
  unfold iblk2
  rw [View.read_apply]
  show V c main_v24 _ = V c main_v24 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 47 + 1 * (y 1).val = (y 1).val; rw [e1]; omega

/-- The last stage of the arrays the region finds. -/
def G (c : Dev nD) : S100000x47.Idx → EReal :=
  Cert.Layers.readoutA (V c main_v46 : S100000x128.Idx → EReal) (Cert.Layers.column (V c main_v20 : S100000x1.Idx → EReal) (0 : Fin 1))
    (Cert.Layers.rowOf (V c main_v23 : S1x128.Idx → EReal)) (V c main_arg6 : S128x47.Idx → EReal)
    (Cert.Layers.rowOf (V c main_v24 : S1x47.Idx → EReal))

/-- The body at an entry of its block, when the blocks' rows are rows of the whole arrays: the last stage at the
    corresponding entry of the whole array. -/
theorem body_rows (H : S100000x128.Idx → EReal) (C : S100000x1.Idx → EReal) (B : S1x128.Idx → EReal) (W : S128x47.Idx → EReal)
    (Bc : S1x47.Idx → EReal)
    (x0 : Vec Ideal S10000x128 .f32) (x1 : Vec Ideal S10000x1 .f32) (x2 : Vec Ideal S1x128 .f32) (x3 : Vec Ideal S128x47 .f32)
    (x4 : Vec Ideal S1x47 .f32) (y : S10000x47.Idx) (i : S100000x47.Idx)
    (h0 : ∀ k : Fin 128, x0 (ix2 (y 0) k) = H (ix2 (i 0) k))
    (h1 : x1 (ix2 (y 0) (0 : Fin 1)) = C (ix2 (i 0) (0 : Fin 1)))
    (h2 : ∀ k : Fin 128, x2 (ix2 (0 : Fin 1) k) = B (ix2 (0 : Fin 1) k))
    (h3 : ∀ k : Fin 128, x3 (ix2 k (y 1)) = W (ix2 k (i 1)))
    (h4 : x4 (ix2 (0 : Fin 1) (y 1)) = Bc (ix2 (0 : Fin 1) (i 1))) :
    k2_pay1 (F := Ideal) x0 x1 x2 x3 x4 y
      = Cert.Layers.readoutA H (Cert.Layers.column C (0 : Fin 1)) (Cert.Layers.rowOf B) W (Cert.Layers.rowOf Bc) i := by
  obtain ⟨p, q, rfl⟩ : ∃ (p : Fin 10000) (q : Fin 47), y = ix2 p q := ⟨y 0, y 1, eq_ix2 y⟩
  rw [Cert.KernelIdeal.Bodies.pay_readout]
  unfold Cert.Layers.readoutA Cert.Layers.readout Cert.Layers.column Cert.Layers.rowOf
  refine congrArg₂ (· + ·) (Finset.sum_congr rfl fun k _ => ?_) ?_
  · show Cert.Layers.act (x0 (ix2 p k)) (x1 (ix2 p (0 : Fin 1))) (x2 (ix2 (0 : Fin 1) k)) * x3 (ix2 k q)
      = Cert.Layers.act (H (ix2 (i 0) k)) (C (ix2 (i 0) (0 : Fin 1))) (B (ix2 (0 : Fin 1) k)) * W (ix2 k (i 1))
    rw [show x0 (ix2 p k) = H (ix2 (i 0) k) from h0 k, show x1 (ix2 p (0 : Fin 1)) = C (ix2 (i 0) (0 : Fin 1)) from h1, h2 k,
      show x3 (ix2 k q) = W (ix2 k (i 1)) from h3 k]
  · exact h4

/-- What point t writes back is block t of the last stage. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x128) hz, View.ld_unit_zero (S := S10000x1) hz, View.ld_unit_zero (S := S1x128) hz,
    View.ld_unit_zero (S := S128x47) hz, View.ld_unit_zero (S := S1x47) hz]
  obtain ⟨e0, e1⟩ := idx_5 t
  funext j
  show k2_pay1 (F := Ideal) (iblk2 V c 0 t) (iblk2 V c 1 t) (iblk2 V c 2 t) (iblk2 V c 3 t) (iblk2 V c 4 t) j
    = G V c (((cfg2.win 5).blk t).view.emb j)
  have hE0 : ((((cfg2.win 5).blk t).view.emb j) 0).val = t.val * 10000 + (j 0).val := by
    show win2_5.index t (0 : Fin 2) * 10000 + 1 * (j 0).val = _; rw [e0]; omega
  have hE1 : ((((cfg2.win 5).blk t).view.emb j) 1).val = (j 1).val := by
    show win2_5.index t (1 : Fin 2) * 47 + 1 * (j 1).val = _; rw [e1]; omega
  have hcol : ∀ k : Fin 128, (ix2 k (j 1) : S128x47.Idx) = ix2 k ((((cfg2.win 5).blk t).view.emb j) 1) := fun k =>
    funext fun a => Fin.ext (by
      match a with
      | ⟨0, _⟩ => rfl
      | ⟨1, _⟩ => exact hE1.symm)
  unfold G
  refine body_rows _ _ _ _ _ _ _ _ _ _ j _ (fun k => ?_) ?_ (fun k => ?_) (fun k => ?_) ?_
  · exact feat_block V c t _ _ hE0 rfl
  · exact col_block V c t _ _ hE0 rfl
  · exact bias_block V c t _
  · exact (weight_block V c t _).trans (congrArg (V c main_arg6 : S128x47.Idx → EReal) (hcol k))
  · exact (cbias_block V c t _).trans (congrArg (V c main_v24 : S1x47.Idx → EReal) (funext fun a => Fin.ext (by
      match a with
      | ⟨0, _⟩ => rfl
      | ⟨1, _⟩ => exact hE1.symm)))

/-- The ten row ranges cover the result array. -/
theorem cover (i : S100000x47.Idx) : ∃ t : Fin cfg2.N, (cfg2.win 5).flush t = true ∧ i ∈ ((cfg2.win 5).blk t).view.set := by
  have hN : cfg2.N = 10 := N_2
  have hi0 : (i 0).val < 100000 := (i 0).isLt
  have hi1 : (i 1).val < 47 := (i 1).isLt
  let t : Fin cfg2.N := ⟨(i 0).val / 10000, by rw [hN]; omega⟩
  obtain ⟨e0, e1⟩ := idx_5 t
  have htv : t.val = (i 0).val / 10000 := rfl
  refine ⟨t, flush2_5 t, ?_⟩
  show i ∈ ((View.whole main_v47).slice (win2_5.rect t)).set
  rw [View.set_slice_whole, Rect.mem_set_unit]
  intro a
  match a with
  | ⟨0, _⟩ => show win2_5.index t (0 : Fin 2) * 10000 ≤ (i 0).val ∧ (i 0).val < win2_5.index t (0 : Fin 2) * 10000 + 10000; rw [e0, htv]; omega
  | ⟨1, _⟩ => show win2_5.index t (1 : Fin 2) * 47 ≤ (i 1).val ∧ (i 1).val < win2_5.index t (1 : Fin 2) * 47 + 47; rw [e1]; omega

/-- The result array after the region: the stage of the arrays it found. -/
theorem final (c : Dev nD) : (dat2 V c).arrAt 5 cfg2.N = G V c :=
  (dat2 V c).arrAt_eq_of_cover 5 (G V c) (fun t _ => flushed_eq V c t) cover

end Cert.KernelIdeal.RegionReadout

end
-- ==== Proof.LibJoinCols.lean ====
/-
  Two matrices with the same rows set side by side, read at an entry.

  The concatenation along the columns of an [a, c₁] matrix and an [a, c₂] matrix is the [a, c₁ + c₂] matrix whose entry
  (p, k) is the first matrix's (p, k) when k < c₁ and the second's (p, k − c₁) otherwise. Generic in the extents and the
  element type.
-/
import Idealize.ShloMosaic.Lib.Pipeline.Value
import Idealize.ShloMosaic.Lib.ValueIdx

namespace Cert.LibJoinCols

open Idealize.ShloMosaic Idealize.ShloMosaic.ValueIdx

variable {α : Type}

/-- Entry (p, k) of the joined matrix, on the first matrix's side. -/
theorem join_cols_left {a c₁ c₂ c : Nat} (x₁ : (⟨2, ![a, c₁]⟩ : Shape).Idx → α) (x₂ : (⟨2, ![a, c₂]⟩ : Shape).Idx → α)
    (h : Shape.Concatenates [⟨2, ![a, c₁]⟩, ⟨2, ![a, c₂]⟩] ⟨2, ![a, c]⟩ (1 : Fin 2)) (p : Fin a) (k : Fin c) (hk : k.val < c₁) :
    concatenate ⟨2, ![a, c]⟩ (1 : Fin 2) [⟨⟨2, ![a, c₁]⟩, x₁⟩, ⟨⟨2, ![a, c₂]⟩, x₂⟩] h (ix2 p k) = x₁ (ix2 p (⟨k.val, hk⟩ : Fin c₁)) :=
  concatenate_pair_apply_left (t := ⟨2, ![a, c]⟩) (s₁ := ⟨2, ![a, c₁]⟩) (s₂ := ⟨2, ![a, c₂]⟩) (1 : Fin 2) x₁ x₂ h (ix2 p k) rfl
    (ix2 p (⟨k.val, hk⟩ : Fin c₁)) (by
      intro b
      match b with
      | ⟨0, _⟩ => rfl
      | ⟨1, _⟩ => rfl)

/-- Entry (p, k) of the joined matrix, on the second matrix's side. -/
theorem join_cols_right {a c₁ c₂ c : Nat} (x₁ : (⟨2, ![a, c₁]⟩ : Shape).Idx → α) (x₂ : (⟨2, ![a, c₂]⟩ : Shape).Idx → α)
    (h : Shape.Concatenates [⟨2, ![a, c₁]⟩, ⟨2, ![a, c₂]⟩] ⟨2, ![a, c]⟩ (1 : Fin 2)) (p : Fin a) (k : Fin c) (hk : c₁ ≤ k.val)
    (hk' : k.val - c₁ < c₂) :
    concatenate ⟨2, ![a, c]⟩ (1 : Fin 2) [⟨⟨2, ![a, c₁]⟩, x₁⟩, ⟨⟨2, ![a, c₂]⟩, x₂⟩] h (ix2 p k)
      = x₂ (ix2 p (⟨k.val - c₁, hk'⟩ : Fin c₂)) :=
  concatenate_pair_apply_right (t := ⟨2, ![a, c]⟩) (s₁ := ⟨2, ![a, c₁]⟩) (s₂ := ⟨2, ![a, c₂]⟩) (1 : Fin 2) x₁ x₂ h (ix2 p k) rfl rfl
    (ix2 p (⟨k.val - c₁, hk'⟩ : Fin c₂)) (by
      intro b hb
      match b with
      | ⟨0, _⟩ => rfl
      | ⟨1, _⟩ => exact absurd rfl hb) (by
      show k.val - c₁ + c₁ = k.val; omega)

end Cert.LibJoinCols
-- ==== Proof.Boundary.lean ====
/-
  The host-only parts of the idealized kernel, and what the first host stretch leaves.

  The host lines before the first region compute, from the edge list, the two index vectors (sources, targets) and
  the two degree weights  max(count, 1)^(-1/2)  (count of an index among the sources, resp. the targets), lay the
  weights out as columns (and the two columns side by side) and the biases as rows. The host lines between the
  regions gather the rows of an array along the sources and add them up at the targets. Stated here: those functions,
  the columns and rows read back as vectors, and the contents of each buffer the first host stretch writes.
-/
import proofs.«153384_j22385369547105_1_alg».proof.Proof.RegionFirst
import proofs.«153384_j22385369547105_1_alg».proof.Proof.RegionHidden
import proofs.«153384_j22385369547105_1_alg».proof.Proof.RegionReadout
import proofs.«153384_j22385369547105_1_alg».proof.Proof.LibJoinCols
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-! ## The host-only parts, as functions -/

/-- The edge list's row of sources, as a vector. -/
def sources (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edge list's row of targets, as a vector. -/
def targets (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The degree weight of every node for an index vector: ones added up at the indices, floored at one, to the power -1/2. -/
def degWeight (ix : (⟨S1600000, .i32⟩ : BufTy).Contents (Elt Ideal)) : (⟨S100000, .f32⟩ : BufTy).Contents (Elt Ideal) :=
  Host.powf (F := Ideal) (φ := .f32) (maximumf (F := Ideal) (φ := .f32) (Host.scatterAdd (F := Ideal) (φ := .f32) scatter_S100000_S1600000x1_S1600000_n_0_0_1
      (broadcastInDim S100000 ![] bcast_S_S100000 (constant (F := Ideal) S_ .f32 0x00000000#32))
      (broadcastInDim S1600000x1 ![0] bcast_S1600000_S1600000x1_0 ix)
      (broadcastInDim S1600000 ![] bcast_S_S1600000 (constant (F := Ideal) S_ .f32 0x3F800000#32)))
    (broadcastInDim S100000 ![] bcast_S_S100000 (constant (F := Ideal) S_ .f32 0x3F800000#32)))
    (broadcastInDim S100000 ![] bcast_S_S100000 (constant (F := Ideal) S_ .f32 0xBF000000#32))

/-- The neighbourhood sum: the rows of `h` gathered along the sources (a negative index counted from the end) and
    added up at the targets, from zero. -/
def neighbourSum (src dst : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## Columns and rows read back -/

/-- A vector laid out as a column, read back as a column, is the vector. -/
theorem column_cast (v : (⟨1, ![100000]⟩ : Shape).Idx → EReal) (h : (⟨1, ![100000]⟩ : Shape).ShapeCasts ⟨2, ![100000, 1]⟩) :
    Cert.Layers.column (shapeCast ⟨2, ![100000, 1]⟩ v h) (0 : Fin 1) = v := by
  funext i
  unfold Cert.Layers.column
  exact (Cert.Columns.shapeCast_a_a1_apply v h (i 0) (0 : Fin 1)).trans (congrArg v (eq_ix1 i).symm)

/-- A vector laid out as a row, read back as a row, is the vector. -/
theorem row_cast {n : Nat} (v : (⟨1, ![n]⟩ : Shape).Idx → EReal) (h : (⟨1, ![n]⟩ : Shape).ShapeCasts ⟨2, ![1, n]⟩) :
    Cert.Layers.rowOf (shapeCast ⟨2, ![1, n]⟩ v h) = v := by
  funext i
  unfold Cert.Layers.rowOf
  exact (shapeCast_a_1a_apply v h (0 : Fin 1) (i 0)).trans (congrArg v (eq_ix1 i).symm)

/-- Two columns set side by side: column 0 of the pair is the first. -/
theorem column_join_left (a b : (⟨2, ![100000, 1]⟩ : Shape).Idx → EReal)
    (h : Shape.Concatenates [⟨2, ![100000, 1]⟩, ⟨2, ![100000, 1]⟩] ⟨2, ![100000, 2]⟩ (1 : Fin 2)) :
    Cert.Layers.column (concatenate ⟨2, ![100000, 2]⟩ (1 : Fin 2) [⟨⟨2, ![100000, 1]⟩, a⟩, ⟨⟨2, ![100000, 1]⟩, b⟩] h) (0 : Fin 2)
      = Cert.Layers.column a (0 : Fin 1) := by
  funext i
  unfold Cert.Layers.column
  exact Cert.LibJoinCols.join_cols_left a b h (i 0) (0 : Fin 2) Nat.one_pos

/-- Two columns set side by side: column 1 of the pair is the second. -/
theorem column_join_right (a b : (⟨2, ![100000, 1]⟩ : Shape).Idx → EReal)
    (h : Shape.Concatenates [⟨2, ![100000, 1]⟩, ⟨2, ![100000, 1]⟩] ⟨2, ![100000, 2]⟩ (1 : Fin 2)) :
    Cert.Layers.column (concatenate ⟨2, ![100000, 2]⟩ (1 : Fin 2) [⟨⟨2, ![100000, 1]⟩, a⟩, ⟨⟨2, ![100000, 1]⟩, b⟩] h) (1 : Fin 2)
      = Cert.Layers.column b (0 : Fin 1) := by
  funext i
  unfold Cert.Layers.column
  exact Cert.LibJoinCols.join_cols_right a b h (i 0) (1 : Fin 2) (Nat.le_refl 1) Nat.one_pos

/-! ## The boundaries' contents at the buffers the regions and the later host lines read -/

section Boundaries

variable (m : (ℓ : Loc nD τ sig) → Buf (Elt Ideal) ℓ) (ρ : Dev nD → PrngReg) (c : Dev nD)

/-- A buffer none of a host stretch's operations writes: the stretch's writes, one by one, are other references. -/
macro "unwritten " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Past the first host stretch a buffer it does not write holds its launch contents. -/
theorem keep1 (b : Ref sig .tc)
    (h : ∀ op ∈ (hostOps0 : List (HloOp τ sig (Elt Ideal))), (Proc.devRef .tc b : DevRef τ sig) ∉ op.writes) :
    W1 m ρ c (Proc.devRef .tc b) = m ((c : Thread nD τ).loc b) :=
  StableHlo.after_of_forall_not_mem (b := Proc.devRef .tc b) _ _ h

/-- Past the second host stretch a buffer it does not write holds what it held before it. -/
theorem keep3 (b : Ref sig .tc)
    (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h

/-- Past the third host stretch a buffer it does not write holds what it held before it. -/
theorem keep5 (b : Ref sig .tc)
    (h : ∀ op ∈ (hostOps2 : List (HloOp τ sig (Elt Ideal))), (Proc.devRef .tc b : DevRef τ sig) ∉ op.writes) :
    W5 m ρ c (Proc.devRef .tc b) = W4 m ρ c (Proc.devRef .tc b) :=
  StableHlo.after_of_forall_not_mem (b := Proc.devRef .tc b) _ _ h

/-- The source indices after the first host stretch. -/
theorem src1 : W1 m ρ c (Proc.devRef .tc main_v1) = sources (m ((c : Thread nD τ).loc main_arg1)) := by
  show StableHlo.after hostOps0 (W0 m ρ c) (Proc.devRef .tc main_v1) = _
  after_results_simp
  unfold sources
  rfl

/-- The target indices after the first host stretch. -/
theorem dst1 : W1 m ρ c (Proc.devRef .tc main_v3) = targets (m ((c : Thread nD τ).loc main_arg1)) := by
  show StableHlo.after hostOps0 (W0 m ρ c) (Proc.devRef .tc main_v3) = _
  after_results_simp
  unfold targets
  rfl

/-- The outgoing weights, as a column. -/
theorem cs1 : W1 m ρ c (Proc.devRef .tc main_v19)
    = shapeCast S100000x1 (degWeight (sources (m ((c : Thread nD τ).loc main_arg1)))) shapeCasts_S100000_S100000x1 := by
  show StableHlo.after hostOps0 (W0 m ρ c) (Proc.devRef .tc main_v19) = _
  after_results_simp
  unfold degWeight sources
  rfl

/-- The incoming weights, as a column. -/
theorem cd1 : W1 m ρ c (Proc.devRef .tc main_v20)
    = shapeCast S100000x1 (degWeight (targets (m ((c : Thread nD τ).loc main_arg1)))) shapeCasts_S100000_S100000x1 := by
  show StableHlo.after hostOps0 (W0 m ρ c) (Proc.devRef .tc main_v20) = _
  after_results_simp
  unfold degWeight targets
  rfl

/-- Running a line of host operations is running its first part, then the rest from what that leaves. -/
theorem after_append (A B : List (HloOp τ sig (Elt Ideal))) (V : Valuation τ sig (Elt Ideal)) :
    StableHlo.after (A ++ B) V = StableHlo.after B (StableHlo.after A V) := by
  induction A generalizing V with
  | nil => rfl
  | cons op A ih => simp only [List.cons_append, StableHlo.after_cons, ih]

/-- The first host stretch, split before its last four operations (the pair of columns and the three bias rows). -/
theorem tail_split (b : DevRef τ sig) :
    W1 m ρ c b = StableHlo.after (List.drop 28 hostOps0) (StableHlo.after (List.take 28 hostOps0) (W0 m ρ c)) b := by
  show StableHlo.after hostOps0 (W0 m ρ c) b = _
  rw [← after_append, List.take_append_drop]

/-- The pair of weight columns: its column 0 is the incoming weights' column, its column 1 the outgoing weights'. -/
theorem coef_cols :
    Cert.Layers.column (W1 m ρ c (Proc.devRef .tc main_v21)) (0 : Fin 2) = Cert.Layers.column (W1 m ρ c (Proc.devRef .tc main_v20)) (0 : Fin 1)
    ∧ Cert.Layers.column (W1 m ρ c (Proc.devRef .tc main_v21)) (1 : Fin 2) = Cert.Layers.column (W1 m ρ c (Proc.devRef .tc main_v19)) (0 : Fin 1) := by
  rw [tail_split m ρ c (Proc.devRef .tc main_v21), tail_split m ρ c (Proc.devRef .tc main_v20), tail_split m ρ c (Proc.devRef .tc main_v19)]
  generalize StableHlo.after (List.take 28 hostOps0) (W0 m ρ c) = U
  simp only [hostOps0, List.drop_succ_cons, List.drop_zero]
  after_results
  exact ⟨column_join_left _ _ _, column_join_right _ _ _⟩

/-- The three biases, as rows. -/
theorem b0row1 : W1 m ρ c (Proc.devRef .tc main_v22) = shapeCast S1x128 (m ((c : Thread nD τ).loc main_arg3)) shapeCasts_S128_S1x128 := by
  show StableHlo.after hostOps0 (W0 m ρ c) (Proc.devRef .tc main_v22) = _
  after_results_simp
  rfl
theorem b1row1 : W1 m ρ c (Proc.devRef .tc main_v23) = shapeCast S1x128 (m ((c : Thread nD τ).loc main_arg5)) shapeCasts_S128_S1x128 := by
  show StableHlo.after hostOps0 (W0 m ρ c) (Proc.devRef .tc main_v23) = _
  after_results_simp
  rfl
theorem bcrow1 : W1 m ρ c (Proc.devRef .tc main_v24) = shapeCast S1x47 (m ((c : Thread nD τ).loc main_arg7)) shapeCasts_S47_S1x47 := by
  show StableHlo.after hostOps0 (W0 m ρ c) (Proc.devRef .tc main_v24) = _
  after_results_simp
  rfl

end Boundaries

end Cert.KernelIdeal.Whole

end
-- ==== Proof.KernelValue.lean ====
/-
  The idealized kernel's result as the network of its arguments.

  Each region leaves its stage of the arrays it finds. Walking the seven boundaries of the run backwards from the
  last, every buffer a region reads is either an argument, a buffer the first host stretch wrote (a weight column,
  the pair of columns, a bias row), or the previous region's result after the neighbourhood sum; a buffer that a host
  stretch or a region does not write keeps its contents across it. So the result is the three stages with the
  neighbourhood sum between them.
-/
import proofs.«153384_j22385369547105_1_alg».proof.Proof.Boundary

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-- A buffer none of a host stretch's operations writes: the stretch's writes, one by one, are other references. -/
macro "unwritten " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The three regions' results, and the program's -/

section Result

variable (m : (ℓ : Loc nD τ sig) → Buf (Elt Ideal) ℓ) (ρ : Dev nD → PrngReg) (c : Dev nD)

/-- A buffer that neither the first region nor the second host stretch writes holds, at the second region's entry, what
    the first host stretch left. -/
theorem at3 (b : Ref sig .tc)
    (h1 : ∀ op ∈ (hostOps1 : List (HloOp τ sig (Elt Ideal))), (Proc.devRef .tc b : DevRef τ sig) ∉ op.writes)
    (h0 : ∀ w, Pipeline.arrRef spec0 w ≠ b) : W3 m ρ c (Proc.devRef .tc b) = W1 m ρ c (Proc.devRef .tc b) :=
  (keep3 m ρ c b h1).trans (W2_of_ne m ρ c b h0)

/-- The same at the second region's exit. -/
theorem at4 (b : Ref sig .tc) (hr1 : ∀ w, Pipeline.arrRef spec1 w ≠ b)
    (h1 : ∀ op ∈ (hostOps1 : List (HloOp τ sig (Elt Ideal))), (Proc.devRef .tc b : DevRef τ sig) ∉ op.writes)
    (h0 : ∀ w, Pipeline.arrRef spec0 w ≠ b) : W4 m ρ c (Proc.devRef .tc b) = W1 m ρ c (Proc.devRef .tc b) :=
  (W4_of_ne m ρ c b hr1).trans (at3 m ρ c b h1 h0)

/-- The same at the third region's entry. -/
theorem at5 (b : Ref sig .tc)
    (h2 : ∀ op ∈ (hostOps2 : List (HloOp τ sig (Elt Ideal))), (Proc.devRef .tc b : DevRef τ sig) ∉ op.writes)
    (hr1 : ∀ w, Pipeline.arrRef spec1 w ≠ b)
    (h1 : ∀ op ∈ (hostOps1 : List (HloOp τ sig (Elt Ideal))), (Proc.devRef .tc b : DevRef τ sig) ∉ op.writes)
    (h0 : ∀ w, Pipeline.arrRef spec0 w ≠ b) : W5 m ρ c (Proc.devRef .tc b) = W1 m ρ c (Proc.devRef .tc b) :=
  (keep5 m ρ c b h2).trans (at4 m ρ c b hr1 h1 h0)

/-- The first region leaves the first stage of the features, the outgoing weights and the first weight matrix. -/
theorem first_result : W2 m ρ c (Proc.devRef .tc main_v25)
    = Cert.Layers.firstA (m ((c : Thread nD τ).loc main_arg0)) (degWeight (sources (m ((c : Thread nD τ).loc main_arg1))))
        (m ((c : Thread nD τ).loc main_arg2)) := by
  refine (W2_arr m ρ c 3).trans ?_
  refine (Cert.KernelIdeal.RegionFirst.final (V1 m ρ) c).trans ?_
  unfold Cert.KernelIdeal.RegionFirst.G
  show Cert.Layers.firstA (W1 m ρ c (Proc.devRef .tc main_arg0)) (Cert.Layers.column (W1 m ρ c (Proc.devRef .tc main_v19)) (0 : Fin 1))
    (W1 m ρ c (Proc.devRef .tc main_arg2)) = _
  rw [keep1 m ρ c main_arg0 (by unwritten hostOps0), keep1 m ρ c main_arg2 (by unwritten hostOps0), cs1, column_cast]

/-- The second region's feature input: the neighbourhood sum of the first region's result. -/
theorem agg3 : W3 m ρ c (Proc.devRef .tc main_v35)
    = neighbourSum (sources (m ((c : Thread nD τ).loc main_arg1))) (targets (m ((c : Thread nD τ).loc main_arg1)))
        (W2 m ρ c (Proc.devRef .tc main_v25)) := by
  show StableHlo.after hostOps1 (W2 m ρ c) (Proc.devRef .tc main_v35) = _
  after_results_simp
  rw [W2_of_ne m ρ c main_v1 (by decide), W2_of_ne m ρ c main_v3 (by decide), src1, dst1]
  unfold neighbourSum
  rfl

/-- The second region leaves the second stage. -/
theorem hidden_result : W4 m ρ c (Proc.devRef .tc main_v36)
    = Cert.Layers.hiddenA
        (neighbourSum (sources (m ((c : Thread nD τ).loc main_arg1))) (targets (m ((c : Thread nD τ).loc main_arg1)))
          (W2 m ρ c (Proc.devRef .tc main_v25)))
        (degWeight (targets (m ((c : Thread nD τ).loc main_arg1)))) (degWeight (sources (m ((c : Thread nD τ).loc main_arg1))))
        (m ((c : Thread nD τ).loc main_arg3)) (m ((c : Thread nD τ).loc main_arg4)) := by
  refine (W4_arr m ρ c 4).trans ?_
  refine (Cert.KernelIdeal.RegionHidden.final (V3 m ρ) c).trans ?_
  unfold Cert.KernelIdeal.RegionHidden.G
  show Cert.Layers.hiddenA (W3 m ρ c (Proc.devRef .tc main_v35)) (Cert.Layers.column (W3 m ρ c (Proc.devRef .tc main_v21)) (0 : Fin 2))
    (Cert.Layers.column (W3 m ρ c (Proc.devRef .tc main_v21)) (1 : Fin 2)) (Cert.Layers.rowOf (W3 m ρ c (Proc.devRef .tc main_v22)))
    (W3 m ρ c (Proc.devRef .tc main_arg4)) = _
  rw [agg3, at3 m ρ c main_v21 (by unwritten hostOps1) (by decide), (coef_cols m ρ c).1, (coef_cols m ρ c).2, cd1, cs1, column_cast, column_cast,
    at3 m ρ c main_v22 (by unwritten hostOps1) (by decide), b0row1, row_cast,
    at3 m ρ c main_arg4 (by unwritten hostOps1) (by decide), keep1 m ρ c main_arg4 (by unwritten hostOps0)]

/-- The third region's feature input: the neighbourhood sum of the second region's result. -/
theorem agg5 : W5 m ρ c (Proc.devRef .tc main_v46)
    = neighbourSum (sources (m ((c : Thread nD τ).loc main_arg1))) (targets (m ((c : Thread nD τ).loc main_arg1)))
        (W4 m ρ c (Proc.devRef .tc main_v36)) := by
  show StableHlo.after hostOps2 (W4 m ρ c) (Proc.devRef .tc main_v46) = _
  after_results_simp
  rw [at4 m ρ c main_v1 (by decide) (by unwritten hostOps1) (by decide), at4 m ρ c main_v3 (by decide) (by unwritten hostOps1) (by decide),
    src1, dst1]
  unfold neighbourSum
  rfl

/-- THE RESULT: the program's result buffer ends at the network of the arguments, with the host's neighbourhood sum and
    degree weights. -/
theorem result_eq : W6 m ρ c (Proc.devRef .tc main_v47)
    = Cert.Layers.network
        (neighbourSum (sources (m ((c : Thread nD τ).loc main_arg1))) (targets (m ((c : Thread nD τ).loc main_arg1))))
        (degWeight (sources (m ((c : Thread nD τ).loc main_arg1)))) (degWeight (targets (m ((c : Thread nD τ).loc main_arg1))))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (W6_arr m ρ c 5).trans ?_
  refine (Cert.KernelIdeal.RegionReadout.final (V5 m ρ) c).trans ?_
  unfold Cert.KernelIdeal.RegionReadout.G
  show Cert.Layers.readoutA (W5 m ρ c (Proc.devRef .tc main_v46)) (Cert.Layers.column (W5 m ρ c (Proc.devRef .tc main_v20)) (0 : Fin 1))
    (Cert.Layers.rowOf (W5 m ρ c (Proc.devRef .tc main_v23))) (W5 m ρ c (Proc.devRef .tc main_arg6))
    (Cert.Layers.rowOf (W5 m ρ c (Proc.devRef .tc main_v24))) = _
  rw [agg5, hidden_result, first_result,
    at5 m ρ c main_v20 (by unwritten hostOps2) (by decide) (by unwritten hostOps1) (by decide), cd1, column_cast,
    at5 m ρ c main_v23 (by unwritten hostOps2) (by decide) (by unwritten hostOps1) (by decide), b1row1, row_cast,
    at5 m ρ c main_arg6 (by unwritten hostOps2) (by decide) (by unwritten hostOps1) (by decide), keep1 m ρ c main_arg6 (by unwritten hostOps0),
    at5 m ρ c main_v24 (by unwritten hostOps2) (by decide) (by unwritten hostOps1) (by decide), bcrow1, row_cast]
  rfl

end Result

end Cert.KernelIdeal.Whole

end
-- ==== Proof.RefValue.lean ====
/-
  The idealized reference as the network of its arguments.

  The reference is one straight line of host operations. Read one operation at a time, its three dense stages are the
  network's three stages: a matrix product read at an entry is the sum over the contracted axis, a weight vector
  broadcast along the rows reads the node's weight, a bias broadcast along the columns reads the feature's bias, and
  the rectifier is the maximum with zero. The two gather-and-add stages between them are one function of the edge
  list and the gathered array, applied twice.
-/
import proofs.«153384_j22385369547105_1_alg».proof.Proof.Gen.ReferenceIdeal.Read
import proofs.«153384_j22385369547105_1_alg».proof.Proof.Layers

set_option maxRecDepth 16384

noncomputable section

open scoped BigOperators
open Idealize.ShloMosaic Idealize.ShloMosaic.TcCoe Idealize.SL.Sem Idealize.ShloMosaic.ValueIdx

namespace Cert.ReferenceIdeal.Whole

open Cert.ReferenceIdeal Cert.ReferenceIdeal.Gen Cert.ReferenceIdeal.Read

/-- The neighbourhood sum: the rows of `h` gathered along the edge list's sources and added up at its targets. -/
def nbrSum (x1 : (⟨S2x1600000, .i32⟩ : BufTy).Contents (Elt Ideal)) (h : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v30 (F := Ideal)) (val_main_v31 (F := Ideal) x1)
    (Host.gather gather_S100000x128_S1600000x1_S1600000x128_1_0_n_n_0_1_1128 h (val_main_v28 (F := Ideal) x1))

/-- The first gather-and-add stage is the neighbourhood sum of the first dense stage. -/
theorem agg_first (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    val_main_v32 (F := Ideal) x0 x1 x2 = nbrSum x1 (val_main_v22 (F := Ideal) x0 x1 x2) := rfl

/-- The second gather-and-add stage is the same neighbourhood sum of the second dense stage. -/
theorem agg_hidden (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v53 (F := Ideal) x0 x1 x2 x3 x4 = nbrSum x1 (val_main_v43 (F := Ideal) x0 x1 x2 x3 x4) := rfl

/-! ## The operations' index maps, by coordinates -/

theorem l22 (i : S100000x128.Idx) (k : Fin 128) : lidx_main_v22 i k = ix2 (i 0) k := funext fun a => Fin.ext (by match a with | ⟨0, _⟩ => rfl | ⟨1, _⟩ => rfl)
theorem r22 (i : S100000x128.Idx) (k : Fin 128) : ridx_main_v22 i k = ix2 k (i 1) := funext fun a => Fin.ext (by match a with | ⟨0, _⟩ => rfl | ⟨1, _⟩ => rfl)
theorem l43 (i : S100000x128.Idx) (k : Fin 128) : lidx_main_v43 i k = ix2 (i 0) k := funext fun a => Fin.ext (by match a with | ⟨0, _⟩ => rfl | ⟨1, _⟩ => rfl)
theorem r43 (i : S100000x128.Idx) (k : Fin 128) : ridx_main_v43 i k = ix2 k (i 1) := funext fun a => Fin.ext (by match a with | ⟨0, _⟩ => rfl | ⟨1, _⟩ => rfl)
theorem l61 (i : S100000x47.Idx) (k : Fin 128) : lidx_main_v61 i k = ix2 (i 0) k := funext fun a => Fin.ext (by match a with | ⟨0, _⟩ => rfl | ⟨1, _⟩ => rfl)
theorem r61 (i : S100000x47.Idx) (k : Fin 128) : ridx_main_v61 i k = ix2 k (i 1) := funext fun a => Fin.ext (by match a with | ⟨0, _⟩ => rfl | ⟨1, _⟩ => rfl)
theorem n19 (i : S100000x128.Idx) (k : Fin 128) : idx_main_v19 (idx_main_v20 (lidx_main_v22 i k)) = ix1 (i 0) := funext fun a => Fin.ext (by match a with | ⟨0, _⟩ => rfl)
theorem n33 (i : S100000x128.Idx) (k : Fin 128) : idx_main_v33 (idx_main_v34 (lidx_main_v43 i k)) = ix1 (i 0) := funext fun a => Fin.ext (by match a with | ⟨0, _⟩ => rfl)
theorem n40 (i : S100000x128.Idx) (k : Fin 128) : idx_main_v40 (idx_main_v41 (lidx_main_v43 i k)) = ix1 (i 0) := funext fun a => Fin.ext (by match a with | ⟨0, _⟩ => rfl)
theorem n54 (i : S100000x47.Idx) (k : Fin 128) : idx_main_v54 (idx_main_v55 (lidx_main_v61 i k)) = ix1 (i 0) := funext fun a => Fin.ext (by match a with | ⟨0, _⟩ => rfl)
theorem f36 (i : S100000x128.Idx) (k : Fin 128) : idx_main_v36 (idx_main_v37 (lidx_main_v43 i k)) = ix1 k := funext fun a => Fin.ext (by match a with | ⟨0, _⟩ => rfl)
theorem f57 (i : S100000x47.Idx) (k : Fin 128) : idx_main_v57 (idx_main_v58 (lidx_main_v61 i k)) = ix1 k := funext fun a => Fin.ext (by match a with | ⟨0, _⟩ => rfl)
theorem f62 (i : S100000x47.Idx) : idx_main_v62 (idx_main_v63 i) = ix1 (i 1) := funext fun a => Fin.ext (by match a with | ⟨0, _⟩ => rfl)

/-! ## The dense stages -/

/-- The first dense stage. -/
theorem first_stage (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    val_main_v22 (F := Ideal) x0 x1 x2 = Cert.Layers.firstA x0 (val_main_v14 (F := Ideal) x1) x2 := by
  funext i
  rw [val_main_v22_apply]
  unfold Cert.Layers.firstA Cert.Layers.first
  refine Finset.sum_congr rfl fun k _ => ?_
  rw [val_main_v21_apply, val_main_v20_apply, val_main_v19_apply, n19, l22, r22]
  rfl

/-- The second dense stage, of the first neighbourhood sum. -/
theorem hidden_stage (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v43 (F := Ideal) x0 x1 x2 x3 x4
      = Cert.Layers.hiddenA (val_main_v32 (F := Ideal) x0 x1 x2) (val_main_v18 (F := Ideal) x1) (val_main_v14 (F := Ideal) x1) x3 x4 := by
  funext i
  rw [val_main_v43_apply]
  unfold Cert.Layers.hiddenA Cert.Layers.hidden Cert.Layers.act Cert.Layers.floor0
  refine Finset.sum_congr rfl fun k _ => ?_
  rw [val_main_v42_apply, val_main_v39_apply, val_main_v38_apply, val_main_v35_apply, val_main_v34_apply, val_main_v33_apply,
    val_main_v37_apply, val_main_v36_apply, val_main_call0_v0_apply, val_main_call0_cst_apply, val_main_v41_apply, val_main_v40_apply,
    n33, f36, n40, l43, r43]
  rfl

/-- The last dense stage, of the second neighbourhood sum. -/
theorem readout_stage (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x47, .f32⟩ : BufTy).Contents (Elt Ideal)) (x7 : (⟨S47, .f32⟩ : BufTy).Contents (Elt Ideal)) :
    val_main_v64 (F := Ideal) x0 x1 x2 x3 x4 x5 x6 x7
      = Cert.Layers.readoutA (val_main_v53 (F := Ideal) x0 x1 x2 x3 x4) (val_main_v18 (F := Ideal) x1) x5 x6 x7 := by
  funext i
  rw [val_main_v64_apply, val_main_v61_apply, val_main_v63_apply, val_main_v62_apply, f62]
  unfold Cert.Layers.readoutA Cert.Layers.readout Cert.Layers.act Cert.Layers.floor0
  refine congrArg (· + x7 (ix1 (i 1))) (Finset.sum_congr rfl fun k _ => ?_)
  rw [val_main_v60_apply, val_main_v59_apply, val_main_v56_apply, val_main_v55_apply, val_main_v54_apply, val_main_v58_apply,
    val_main_v57_apply, val_main_call1_v0_apply, val_main_call1_cst_apply, n54, f57, l61, r61]
  rfl

/-- The reference's result is the network of its arguments, with its own neighbourhood sum and degree weights. -/
theorem network_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x47, .f32⟩ : BufTy).Contents (Elt Ideal)) (x7 : (⟨S47, .f32⟩ : BufTy).Contents (Elt Ideal)) :
    val_main_v64 (F := Ideal) x0 x1 x2 x3 x4 x5 x6 x7
      = Cert.Layers.network (nbrSum x1) (val_main_v14 (F := Ideal) x1) (val_main_v18 (F := Ideal) x1) x0 x2 x3 x4 x5 x6 x7 := by
  rw [readout_stage, agg_hidden, hidden_stage, agg_first, first_stage]
  rfl

end Cert.ReferenceIdeal.Whole

end
-- ==== Proof.HostParts.lean ====
/-
  The two programs' host-only parts are the same functions.

  Both programs compute the degree weights and the neighbourhood sum by the same host operations of the edge list:
  a row of the list as a vector, ones added up at its entries, floored at one, raised to -1/2; and rows gathered
  along the sources (a negative index counted from the end) and added up at the targets. Each program prints the
  operations' shape records under its own names; the records hold the same lists.
-/
import proofs.«153384_j22385369547105_1_alg».proof.Proof.Boundary
import proofs.«153384_j22385369547105_1_alg».proof.Proof.RefValue

set_option maxRecDepth 16384

noncomputable section

open Idealize.ShloMosaic

namespace Cert.HostParts

open Cert.ReferenceIdeal.Read

/-- The outgoing degree weights. -/
theorem weights_src (e : (⟨Cert.KernelIdeal.S2x1600000, .i32⟩ : BufTy).Contents (Elt Ideal)) :
    Cert.KernelIdeal.Whole.degWeight (Cert.KernelIdeal.Whole.sources e) = val_main_v14 (F := Ideal) e := by
  unfold Cert.KernelIdeal.Whole.degWeight Cert.KernelIdeal.Whole.sources val_main_v14 val_main_v13 val_main_cst_3 val_main_v12 val_main_v11
    val_main_cst_2 val_main_v7 val_main_v6 val_main_v5 val_main_cst_0 val_main_v4 val_main_cst val_main_v1 val_main_v0
  rfl

/-- The incoming degree weights. -/
theorem weights_dst (e : (⟨Cert.KernelIdeal.S2x1600000, .i32⟩ : BufTy).Contents (Elt Ideal)) :
    Cert.KernelIdeal.Whole.degWeight (Cert.KernelIdeal.Whole.targets e) = val_main_v18 (F := Ideal) e := by
  unfold Cert.KernelIdeal.Whole.degWeight Cert.KernelIdeal.Whole.targets val_main_v18 val_main_v17 val_main_cst_5 val_main_v16 val_main_v15
    val_main_cst_4 val_main_v10 val_main_v9 val_main_v8 val_main_cst_1 val_main_v4 val_main_cst val_main_v3 val_main_v2
  rfl

/-- The neighbourhood sum. -/
theorem nbr_sum (e : (⟨Cert.KernelIdeal.S2x1600000, .i32⟩ : BufTy).Contents (Elt Ideal))
    (h : (⟨Cert.KernelIdeal.S100000x128, .f32⟩ : BufTy).Contents (Elt Ideal)) :
    Cert.KernelIdeal.Whole.neighbourSum (Cert.KernelIdeal.Whole.sources e) (Cert.KernelIdeal.Whole.targets e) h
      = Cert.ReferenceIdeal.Whole.nbrSum e h := by
  unfold Cert.KernelIdeal.Whole.neighbourSum Cert.KernelIdeal.Whole.sources Cert.KernelIdeal.Whole.targets Cert.ReferenceIdeal.Whole.nbrSum
    val_main_v30 val_main_cst_7 val_main_v31 val_main_v3 val_main_v2 val_main_v28 val_main_v27 val_main_v24 val_main_v23 val_main_c
    val_main_v26 val_main_v25 val_main_c_6 val_main_v1 val_main_v0
  rfl

end Cert.HostParts

end
-- ==== Proof.lean ====
/- The proof of `Cert.Claim`: a two-layer graph convolution with a linear classifier, computed by three kernel regions
   with the sparse neighbourhood sums left to the host, against the same network written with plain array operations.

   Over the extended reals both programs compute  readout (A (hidden (A (first x))))  where A gathers rows along the
   edges' sources and adds them up at the targets, and the dense stages are

     first   (p, q) = sum_k (x(p, k) * cs(p)) * W0(k, q)
     hidden  (p, q) = sum_k (max(h(p, k) * cd(p) + b0(k), 0) * cs(p)) * W1(k, q)
     readout (p, q) = (sum_k max(h(p, k) * cd(p) + b1(k), 0) * Wc(k, q)) + bc(q)

   with cs, cd the degree weights max(count, 1)^(-1/2) of the sources and of the targets. The kernel computes each
   dense stage 10000 rows at a time; a stage reads one row of its input per row of its output, so the row blocks
   assemble to the stage of the whole array. A change of float format is the identity and a matrix product into a zero
   accumulator is the plain sum, so no law of arithmetic beyond that is used, and the inputs' finiteness is never
   needed. The host-only parts (degree weights, neighbourhood sum) are the same operations in both programs.

   The frames of the two kernel programs and the reference's run and stage-by-stage reading are the generated modules';
   written here: the specification (Proof/Layers), the kernel bodies at an entry (Proof/Bodies), each region as one
   function of the arrays it finds (Proof/RegionFirst, RegionHidden, RegionReadout), the kernel's run with its result
   named and that result as the network (Proof/KernelRun, Boundary, KernelValue), the reference as the network
   (Proof/RefValue), and the agreement of the host-only parts (Proof/HostParts). -/
import proofs.«153384_j22385369547105_1_alg».proof.Defs
import proofs.«153384_j22385369547105_1_alg».proof.Proof.Gen.Kernel
import proofs.«153384_j22385369547105_1_alg».proof.Proof.Gen.Kernel.Skeleton
import proofs.«153384_j22385369547105_1_alg».proof.Proof.Gen.Kernel.Launch
import proofs.«153384_j22385369547105_1_alg».proof.Proof.Gen.Kernel.Points
import proofs.«153384_j22385369547105_1_alg».proof.Proof.Gen.Kernel.Frame
import proofs.«153384_j22385369547105_1_alg».proof.Proof.Gen.KernelIdeal
import proofs.«153384_j22385369547105_1_alg».proof.Proof.Gen.KernelIdeal.Skeleton
import proofs.«153384_j22385369547105_1_alg».proof.Proof.Gen.KernelIdeal.Launch
import proofs.«153384_j22385369547105_1_alg».proof.Proof.Gen.KernelIdeal.Points
import proofs.«153384_j22385369547105_1_alg».proof.Proof.Gen.KernelIdeal.Frame
import proofs.«153384_j22385369547105_1_alg».proof.Proof.Gen.ReferenceIdeal
import proofs.«153384_j22385369547105_1_alg».proof.Proof.Gen.ReferenceIdeal.Run
import proofs.«153384_j22385369547105_1_alg».proof.Proof.Gen.ReferenceIdeal.Read
import proofs.«153384_j22385369547105_1_alg».proof.Proof.Gen.Pre_finite_inputs
import proofs.«153384_j22385369547105_1_alg».proof.Proof.KernelRun
import proofs.«153384_j22385369547105_1_alg».proof.Proof.KernelValue
import proofs.«153384_j22385369547105_1_alg».proof.Proof.RefValue
import proofs.«153384_j22385369547105_1_alg».proof.Proof.HostParts
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the network of the arguments. -/
theorem algebraic : Cert.algebraic_KernelIdeal_ReferenceIdeal := by
  intro m ρ m' ρ' _ hagree
  refine ⟨fun c => Cert.Layers.network
      (Cert.KernelIdeal.Whole.neighbourSum
        (Cert.KernelIdeal.Whole.sources (m ((c.tc : Thread Cert.KernelIdeal.nD Cert.KernelIdeal.τ).loc Cert.KernelIdeal.main_arg1)))
        (Cert.KernelIdeal.Whole.targets (m ((c.tc : Thread Cert.KernelIdeal.nD Cert.KernelIdeal.τ).loc Cert.KernelIdeal.main_arg1))))
      (Cert.KernelIdeal.Whole.degWeight
        (Cert.KernelIdeal.Whole.sources (m ((c.tc : Thread Cert.KernelIdeal.nD Cert.KernelIdeal.τ).loc Cert.KernelIdeal.main_arg1))))
      (Cert.KernelIdeal.Whole.degWeight
        (Cert.KernelIdeal.Whole.targets (m ((c.tc : Thread Cert.KernelIdeal.nD Cert.KernelIdeal.τ).loc Cert.KernelIdeal.main_arg1))))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v64_eq, Cert.ReferenceIdeal.Whole.network_eq, a0, a1, a2, a3, a4, a5, a6, a7,
      ← Cert.HostParts.weights_src, ← Cert.HostParts.weights_dst]
    exact congrArg (fun A => Cert.Layers.network A _ _ _ _ _ _ _ _ _)
      (funext fun h => (Cert.HostParts.nbr_sum _ h).symm)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
